-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S2048x8192 : Shape := ⟨2, ![2048, 8192]⟩
abbrev S2048x16 : Shape := ⟨2, ![2048, 16]⟩
abbrev S16x8192 : Shape := ⟨2, ![16, 8192]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S2048x8192 : S_.BroadcastsInDim S2048x8192 (![] : Fin 0 → Fin S2048x8192.rank)
  reducesTo_S2048x8192_S_d0_1 : S2048x8192.ReducesTo [0, 1] S_
  bcast_S_S2048x16 : S_.BroadcastsInDim S2048x16 (![] : Fin 0 → Fin S2048x16.rank)
  reducesTo_S2048x16_S_d0_1 : S2048x16.ReducesTo [0, 1] S_
  bcast_S_S16x8192 : S_.BroadcastsInDim S16x8192 (![] : Fin 0 → Fin S16x8192.rank)
  reducesTo_S16x8192_S_d0_1 : S16x8192.ReducesTo [0, 1] S_

variable [Facts]

def fn_part1 {F : FTy → Type} [FloatOps F] (main_v13 : IVec S_ 1) (main_v16 : IVec S16x8192 1) : IVec S_ 1 :=
  let main_c_5 : IVec S_ 1 := constantI S_ 1 1#1
  let main_v17 : IVec S_ 1 := (fun x v => Host.reduce IntOp.andi x v reducesTo_S16x8192_S_d0_1 h_S_) main_v16 main_c_5
  let main_v18 : IVec S_ 1 := andi main_v13 main_v17
  main_v18

def fn {F : FTy → Type} [FloatOps F] (main_arg0 : FVec F S4x2048x2048 .f32) (main_arg1 : FVec F S2048x8192 .f32) (main_arg2 : FVec F S2048x16 .f32) (main_arg3 : FVec F S16x8192 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S2048x8192 .f32 := Host.absf main_arg1
  let main_cst_0 : FVec F S_ .f32 := constant S_ .f32 0x7F800000#32
  let main_v5 : FVec F S2048x8192 .f32 := broadcastInDim S2048x8192 ![] bcast_S_S2048x8192 main_cst_0
  let main_v6 : IVec S2048x8192 1 := cmpf .olt main_v4 main_v5
  let main_c_1 : IVec S_ 1 := constantI S_ 1 1#1
  let main_v7 : IVec S_ 1 := (fun x v => Host.reduce IntOp.andi x v reducesTo_S2048x8192_S_d0_1 h_S_) main_v6 main_c_1
  let main_v8 : IVec S_ 1 := andi main_v3 main_v7
  let main_v9 : FVec F S2048x16 .f32 := Host.absf main_arg2
  let main_cst_2 : FVec F S_ .f32 := constant S_ .f32 0x7F800000#32
  let main_v10 : FVec F S2048x16 .f32 := broadcastInDim S2048x16 ![] bcast_S_S2048x16 main_cst_2
  let main_v11 : IVec S2048x16 1 := cmpf .olt main_v9 main_v10
  let main_c_3 : IVec S_ 1 := constantI S_ 1 1#1
  let main_v12 : IVec S_ 1 := (fun x v => Host.reduce IntOp.andi x v reducesTo_S2048x16_S_d0_1 h_S_) main_v11 main_c_3
  let main_v13 : IVec S_ 1 := andi main_v8 main_v12
  let main_v14 : FVec F S16x8192 .f32 := Host.absf main_arg3
  let main_cst_4 : FVec F S_ .f32 := constant S_ .f32 0x7F800000#32
  let main_v15 : FVec F S16x8192 .f32 := broadcastInDim S16x8192 ![] bcast_S_S16x8192 main_cst_4
  let main_v16 : IVec S16x8192 1 := cmpf .olt main_v14 main_v15
  fn_part1 (F := F) main_v13 main_v16
-- ==== Kernel.lean ====
abbrev S4x2048x2048 : Shape := ⟨3, ![4, 2048, 2048]⟩
abbrev S2048x8192 : Shape := ⟨2, ![2048, 8192]⟩
abbrev S2048x16 : Shape := ⟨2, ![2048, 16]⟩
abbrev S16x8192 : Shape := ⟨2, ![16, 8192]⟩
abbrev S8192x2048 : Shape := ⟨2, ![8192, 2048]⟩
abbrev S8192x16 : Shape := ⟨2, ![8192, 16]⟩
abbrev S8192x8192 : Shape := ⟨2, ![8192, 8192]⟩
abbrev S1024x512 : Shape := ⟨2, ![1024, 512]⟩
abbrev S512x2048 : Shape := ⟨2, ![512, 2048]⟩
abbrev S1024x16 : Shape := ⟨2, ![1024, 16]⟩
abbrev S16x2048 : Shape := ⟨2, ![16, 2048]⟩
abbrev S1024x2048 : Shape := ⟨2, ![1024, 2048]⟩
abbrev S4x2048x8192 : Shape := ⟨3, ![4, 2048, 8192]⟩

abbrev nBuf : Space → Nat
  | .hbm => 13
  | .vmem => 11
  | .smem => 0
  | _ => 0

abbrev bufTy : (tb : Table) → Fin (tcTables nBuf tb) → BufTy
  | .hbm, ⟨0, _⟩ => ⟨S4x2048x2048, .f32⟩
  | .hbm, ⟨1, _⟩ => ⟨S2048x8192, .f32⟩
  | .hbm, ⟨2, _⟩ => ⟨S2048x16, .f32⟩
  | .hbm, ⟨3, _⟩ => ⟨S16x8192, .f32⟩
  | .hbm, ⟨4, _⟩ => ⟨S8192x2048, .f32⟩
  | .hbm, ⟨5, _⟩ => ⟨S8192x2048, .bf16⟩
  | .hbm, ⟨6, _⟩ => ⟨S2048x8192, .bf16⟩
  | .hbm, ⟨7, _⟩ => ⟨S2048x16, .bf16⟩
  | .hbm, ⟨8, _⟩ => ⟨S16x8192, .bf16⟩
  | .hbm, ⟨9, _⟩ => ⟨S8192x16, .f32⟩
  | .hbm, ⟨10, _⟩ => ⟨S8192x16, .bf16⟩
  | .hbm, ⟨11, _⟩ => ⟨S8192x8192, .f32⟩
  | .hbm, ⟨12, _⟩ => ⟨S4x2048x8192, .f32⟩
  | .local _ .vmem, ⟨0, _⟩ => ⟨S1024x512, .bf16⟩
  | .local _ .vmem, ⟨1, _⟩ => ⟨S1024x512, .bf16⟩
  | .local _ .vmem, ⟨2, _⟩ => ⟨S512x2048, .bf16⟩
  | .local _ .vmem, ⟨3, _⟩ => ⟨S512x2048, .bf16⟩
  | .local _ .vmem, ⟨4, _⟩ => ⟨S1024x16, .bf16⟩
  | .local _ .vmem, ⟨5, _⟩ => ⟨S1024x16, .bf16⟩
  | .local _ .vmem, ⟨6, _⟩ => ⟨S16x2048, .bf16⟩
  | .local _ .vmem, ⟨7, _⟩ => ⟨S16x2048, .bf16⟩
  | .local _ .vmem, ⟨8, _⟩ => ⟨S1024x2048, .f32⟩
  | .local _ .vmem, ⟨9, _⟩ => ⟨S1024x2048, .f32⟩
  | .local _ .vmem, ⟨10, _⟩ => ⟨S1024x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x16 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S16x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x2048x2048_S8192x2048 : S4x2048x2048.ShapeCasts S8192x2048
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S16x2048_S16x2048_0_0 : ∀ a, (![0, 0] : Fin 2 → Nat) a + S16x2048.size a ≤ S16x2048.size a
  h_S16x2048 : 0 < S16x2048.numel
  shapeCasts_S16x2048_S16x2048 : S16x2048.ShapeCasts S16x2048
  shapeCasts_S8192x8192_S4x2048x8192 : S8192x8192.ShapeCasts S4x2048x8192
  dot_S8192x2048_S2048x16_S8192x16_1_0_0_1_n_n_wf : DotDims.WF S8192x2048 S2048x16 S8192x16 [1] [0] [0] [1] [] []
  dot_S1024x512_S512x2048_S1024x2048_1_0_0_1_n_n_wf : DotDims.WF S1024x512 S512x2048 S1024x2048 [1] [0] [0] [1] [] []
  dot_S1024x16_S16x2048_S1024x2048_1_0_0_1_n_n_wf : DotDims.WF S1024x16 S16x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x2048.size a
  hwx0_0 : ∀ i : grid0.Coords, EltTy.bits .bf16 = 32 ∨ (Rect.block (s := S8192x2048) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S2048x8192.size a
  hwx0_1 : ∀ i : grid0.Coords, EltTy.bits .bf16 = 32 ∨ (Rect.block (s := S2048x8192) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x16.size a ≤ S8192x16.size a
  hwx0_2 : ∀ i : grid0.Coords, EltTy.bits .bf16 = 32 ∨ (Rect.block (s := S8192x16) S1024x16.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x2048.size a ≤ S16x8192.size a
  hwx0_3 : ∀ i : grid0.Coords, EltTy.bits .bf16 = 32 ∨ (Rect.block (s := S16x8192) S16x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S8192x8192.size a
  hwx0_4 : ∀ i : grid0.Coords, EltTy.bits .f32 = 32 ∨ (Rect.block (s := S8192x8192) S1024x2048.size (cc0_transform_4 i) (hinb0_4 i)).WholeWords (EltTy.packing .f32)

variable [Facts₀]

def dot_S8192x2048_S2048x16_S8192x16_1_0_0_1_n_n : DotDims S8192x2048 S2048x16 S8192x16 where
  lhsContracting := [1]
  rhsContracting := [0]
  lhsNonContracting := [0]
  rhsNonContracting := [1]
  lhsBatch := []
  rhsBatch := []
  wf := dot_S8192x2048_S2048x16_S8192x16_1_0_0_1_n_n_wf
def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf
def dot_S1024x16_S16x2048_S1024x2048_1_0_0_1_n_n : DotDims S1024x16 S16x2048 S1024x2048 where
  lhsContracting := [1]
  rhsContracting := [0]
  lhsNonContracting := [0]
  rhsNonContracting := [1]
  lhsBatch := []
  rhsBatch := []
  wf := dot_S1024x16_S16x2048_S1024x2048_1_0_0_1_n_n_wf

abbrev win0_0 : Pipeline.Window sig grid0 :=
  Pipeline.Window.ofSpec (Memref.whole main_v1) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S16x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x2048x2048 : Shape := ⟨3, ![4, 2048, 2048]⟩
abbrev S2048x8192 : Shape := ⟨2, ![2048, 8192]⟩
abbrev S2048x16 : Shape := ⟨2, ![2048, 16]⟩
abbrev S16x8192 : Shape := ⟨2, ![16, 8192]⟩
abbrev S4x2048x8192 : Shape := ⟨3, ![4, 2048, 8192]⟩
abbrev S4x2048x16 : Shape := ⟨3, ![4, 2048, 16]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x8192, .f32⟩
  | .hbm, ⟨2, _⟩ => ⟨S2048x16, .f32⟩
  | .hbm, ⟨3, _⟩ => ⟨S16x8192, .f32⟩
  | .hbm, ⟨4, _⟩ => ⟨S4x2048x8192, .f32⟩
  | .hbm, ⟨5, _⟩ => ⟨S4x2048x16, .f32⟩
  | .hbm, ⟨6, _⟩ => ⟨S4x2048x8192, .f32⟩
  | .hbm, ⟨7, _⟩ => ⟨S_, .f32⟩
  | .hbm, ⟨8, _⟩ => ⟨S4x2048x8192, .f32⟩
  | .hbm, ⟨9, _⟩ => ⟨S4x2048x8192, .f32⟩
  | .hbm, ⟨10, _⟩ => ⟨S4x2048x8192, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  bcast_S_S4x2048x8192 : S_.BroadcastsInDim S4x2048x8192 (![] : Fin 0 → Fin S4x2048x8192.rank)
  dot_S4x2048x2048_S2048x8192_S4x2048x8192_2_0_01_1_n_n_wf : DotDims.WF S4x2048x2048 S2048x8192 S4x2048x8192 [2] [0] [0, 1] [1] [] []
  dot_S4x2048x2048_S2048x16_S4x2048x16_2_0_01_1_n_n_wf : DotDims.WF S4x2048x2048 S2048x16 S4x2048x16 [2] [0] [0, 1] [1] [] []
  dot_S4x2048x16_S16x8192_S4x2048x8192_2_0_01_1_n_n_wf : DotDims.WF S4x2048x16 S16x8192 S4x2048x8192 [2] [0] [0, 1] [1] [] []

variable [Facts₀]

def dot_S4x2048x2048_S2048x8192_S4x2048x8192_2_0_01_1_n_n : DotDims S4x2048x2048 S2048x8192 S4x2048x8192 where
  lhsContracting := [2]
  rhsContracting := [0]
  lhsNonContracting := [0, 1]
  rhsNonContracting := [1]
  lhsBatch := []
  rhsBatch := []
  wf := dot_S4x2048x2048_S2048x8192_S4x2048x8192_2_0_01_1_n_n_wf
def dot_S4x2048x2048_S2048x16_S4x2048x16_2_0_01_1_n_n : DotDims S4x2048x2048 S2048x16 S4x2048x16 where
  lhsContracting := [2]
  rhsContracting := [0]
  lhsNonContracting := [0, 1]
  rhsNonContracting := [1]
  lhsBatch := []
  rhsBatch := []
  wf := dot_S4x2048x2048_S2048x16_S4x2048x16_2_0_01_1_n_n_wf
def dot_S4x2048x16_S16x8192_S4x2048x8192_2_0_01_1_n_n : DotDims S4x2048x16 S16x8192 S4x2048x8192 where
  lhsContracting := [2]
  rhsContracting := [0]
  lhsNonContracting := [0, 1]
  rhsNonContracting := [1]
  lhsBatch := []
  rhsBatch := []
  wf := dot_S4x2048x16_S16x8192_S4x2048x8192_2_0_01_1_n_n_wf

class Facts : Prop extends Facts₀ where

variable [Facts]
-- ==== Proof.Pieces.lean ====
/-
  What one run of the kernel body leaves behind, as values.

  The body keeps a running [1024, 2048] block in a scratch buffer. At a grid point whose innermost coordinate is 0 it
  first clears the scratch, then adds the product of the point's [1024, 512] and [512, 2048] input blocks; at the other
  points it adds that product to what the point before left; at a point whose innermost coordinate is 3 it also
  stores, into the output block, the scratch plus twice the product of the [1024, 16] and [16, 2048] blocks.
  Each of these stores writes a whole buffer, so what a buffer ends holding is the store's value, a function of the
  blocks the body loaded. The statements hold for any float instance.
-/
import proofs.«161209_j89979564851975_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces
open Cert.KernelIdeal Cert.KernelIdeal.Gen

variable {F : FTy → Type} [FloatOps F]

/-- A whole-buffer access starts at offset zero on both axes. -/
theorem hz : (![0, 0] : Fin 2 → Nat) = fun _ => 0 := funext fun a => by fin_cases a <;> rfl

/-- First step of a row of points: the scratch is cleared and then holds the cleared block plus the step's product. -/
theorem scratch_first (c : Dev nD) (i : grid0.Coords) (arg3 : Memref sig .tc .vmem S1024x512 .bf16) (harg3 : arg3.IsWhole) (arg4 : Memref sig .tc .vmem S512x2048 .bf16) (harg4 : arg4.IsWhole) (arg5 : Memref sig .tc .vmem S1024x16 .bf16) (harg5 : arg5.IsWhole) (arg6 : Memref sig .tc .vmem S16x2048 .bf16) (harg6 : arg6.IsWhole) (arg7 : Memref sig .tc .vmem S1024x2048 .f32) (harg7 : arg7.IsWhole) (arg8 : Memref sig .tc .vmem S1024x2048 .f32) (harg8 : arg8.IsWhole) (hc0 : cond0_0 i) (hc1 : ¬cond0_1 i)
    (x0 : Vec F S1024x512 .bf16) (x1 : Vec F S512x2048 .bf16) (x2 : Vec F S1024x16 .bf16) (x3 : Vec F S16x2048 .bf16) :
    sout0_A_0 c i arg3 harg3 arg4 harg4 arg5 harg5 arg6 harg6 arg7 harg7 arg8 harg8 hc0 hc1 x0 x1 x2 x3 = k0_pay2 (k0_pay1 (F := F)) x0 x1 := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S1024x2048) hz, View.readCov_unit_zero (S := S1024x2048) _ hz]
  simp only [View.readAt_eq_ld, harg8.read_unread, harg3.read_unread, harg4.read_unread, harg5.read_unread, harg6.read_unread,
    View.ld_unit_zero (S := S1024x2048) hz, View.ld_unit_zero (S := S1024x512) hz, View.ld_unit_zero (S := S512x2048) hz,
    View.ld_unit_zero (S := S1024x16) hz, View.ld_unit_zero (S := S16x2048) hz]

/-- A middle step: the scratch holds what the step before left plus the step's product. -/
theorem scratch_middle (c : Dev nD) (i : grid0.Coords) (arg3 : Memref sig .tc .vmem S1024x512 .bf16) (harg3 : arg3.IsWhole) (arg4 : Memref sig .tc .vmem S512x2048 .bf16) (harg4 : arg4.IsWhole) (arg5 : Memref sig .tc .vmem S1024x16 .bf16) (harg5 : arg5.IsWhole) (arg6 : Memref sig .tc .vmem S16x2048 .bf16) (harg6 : arg6.IsWhole) (arg7 : Memref sig .tc .vmem S1024x2048 .f32) (harg7 : arg7.IsWhole) (arg8 : Memref sig .tc .vmem S1024x2048 .f32) (harg8 : arg8.IsWhole) (hc0 : ¬cond0_0 i) (hc1 : ¬cond0_1 i)
    (x0 : Vec F S1024x512 .bf16) (x1 : Vec F S512x2048 .bf16) (x2 : Vec F S1024x16 .bf16) (x3 : Vec F S16x2048 .bf16) (xs0 : Vec F S1024x2048 .f32) :
    sout0_B_0 c i arg3 harg3 arg4 harg4 arg5 harg5 arg6 harg6 arg7 harg7 arg8 harg8 hc0 hc1 x0 x1 x2 x3 xs0 = k0_pay2 xs0 x0 x1 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  rw [View.canon_unit_zero hz]
  simp only [View.readAt_eq_ld, harg8.read_unread, harg3.read_unread, harg4.read_unread, harg5.read_unread, harg6.read_unread,
    View.ld_unit_zero (S := S1024x2048) hz, View.ld_unit_zero (S := S1024x512) hz, View.ld_unit_zero (S := S512x2048) hz,
    View.ld_unit_zero (S := S1024x16) hz, View.ld_unit_zero (S := S16x2048) hz]

/-- The last step adds its product to the scratch in the same way. -/
theorem scratch_last (c : Dev nD) (i : grid0.Coords) (arg3 : Memref sig .tc .vmem S1024x512 .bf16) (harg3 : arg3.IsWhole) (arg4 : Memref sig .tc .vmem S512x2048 .bf16) (harg4 : arg4.IsWhole) (arg5 : Memref sig .tc .vmem S1024x16 .bf16) (harg5 : arg5.IsWhole) (arg6 : Memref sig .tc .vmem S16x2048 .bf16) (harg6 : arg6.IsWhole) (arg7 : Memref sig .tc .vmem S1024x2048 .f32) (harg7 : arg7.IsWhole) (arg8 : Memref sig .tc .vmem S1024x2048 .f32) (harg8 : arg8.IsWhole) (hc0 : ¬cond0_0 i) (hc1 : cond0_1 i)
    (x0 : Vec F S1024x512 .bf16) (x1 : Vec F S512x2048 .bf16) (x2 : Vec F S1024x16 .bf16) (x3 : Vec F S16x2048 .bf16) (xs0 : Vec F S1024x2048 .f32) :
    sout0_C_0 c i arg3 harg3 arg4 harg4 arg5 harg5 arg6 harg6 arg7 harg7 arg8 harg8 hc0 hc1 x0 x1 x2 x3 xs0 = k0_pay2 xs0 x0 x1 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero hz]
  simp only [View.readAt_eq_ld, harg8.read_unread, harg3.read_unread, harg4.read_unread, harg5.read_unread, harg6.read_unread,
    View.ld_unit_zero (S := S1024x2048) hz, View.ld_unit_zero (S := S1024x512) hz, View.ld_unit_zero (S := S512x2048) hz,
    View.ld_unit_zero (S := S1024x16) hz, View.ld_unit_zero (S := S16x2048) hz]

/-- and then stores the output block: the completed scratch plus twice the low-rank product. -/
theorem out_last (c : Dev nD) (i : grid0.Coords) (arg3 : Memref sig .tc .vmem S1024x512 .bf16) (harg3 : arg3.IsWhole) (arg4 : Memref sig .tc .vmem S512x2048 .bf16) (harg4 : arg4.IsWhole) (arg5 : Memref sig .tc .vmem S1024x16 .bf16) (harg5 : arg5.IsWhole) (arg6 : Memref sig .tc .vmem S16x2048 .bf16) (harg6 : arg6.IsWhole) (arg7 : Memref sig .tc .vmem S1024x2048 .f32) (harg7 : arg7.IsWhole) (arg8 : Memref sig .tc .vmem S1024x2048 .f32) (harg8 : arg8.IsWhole) (hc0 : ¬cond0_0 i) (hc1 : cond0_1 i)
    (x0 : Vec F S1024x512 .bf16) (x1 : Vec F S512x2048 .bf16) (x2 : Vec F S1024x16 .bf16) (x3 : Vec F S16x2048 .bf16) (xs0 : Vec F S1024x2048 .f32) :
    out0_C_4 c i arg3 harg3 arg4 harg4 arg5 harg5 arg6 harg6 arg7 harg7 arg8 harg8 hc0 hc1 x0 x1 x2 x3 xs0 = k0_pay3 x2 x3 (k0_pay2 xs0 x0 x1) := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero hz, View.readCov_unit_zero (S := S1024x2048) _ hz]
  simp only [View.readAt_eq_ld, harg8.read_unread, harg3.read_unread, harg4.read_unread, harg5.read_unread, harg6.read_unread,
    View.ld_unit_zero (S := S1024x2048) hz, View.ld_unit_zero (S := S1024x512) hz, View.ld_unit_zero (S := S512x2048) hz,
    View.ld_unit_zero (S := S1024x16) hz, View.ld_unit_zero (S := S16x2048) hz]

/-! ## The same, at a grid point: what the scratch and the output block hold after the body there -/

section Points
variable (m : (ℓ : Loc nD τ sig) → Buf (Elt F) ℓ)

/-- After a point that starts a row of steps the scratch holds the cleared block plus that point's product. -/
theorem scratch_at_first (c : Dev nD) (t : Fin cfg0.N) (h0 : t.val % 4 = 0) :
    (outsAt0 m c t.val t.isLt).2 = k0_pay2 (k0_pay1 (F := F)) (iblk m c 0 t) (iblk m c 1 t) := by
  have h1 : ¬t.val % 4 = 3 := by omega
  have e := scratch_first c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)
  rw [outsAt0_A m c t h0 h1]
  dsimp only
  exact e

/-- After a middle point it holds what the point before left plus this point's product. -/
theorem scratch_at_middle (c : Dev nD) (t : Fin cfg0.N) (h0 : ¬t.val % 4 = 0) (h1 : ¬t.val % 4 = 3) :
    (outsAt0 m c t.val t.isLt).2 = k0_pay2 (outsAt0 m c (t.val - 1) (Nat.lt_of_le_of_lt (Nat.sub_le _ _) t.isLt)).2 (iblk m c 0 t) (iblk m c 1 t) := by
  have e := scratch_middle c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2
  rw [outsAt0_B m c t h0 h1]
  dsimp only
  exact e

/-- After a last point likewise, -/
theorem scratch_at_last (c : Dev nD) (t : Fin cfg0.N) (h0 : ¬t.val % 4 = 0) (h1 : t.val % 4 = 3) :
    (outsAt0 m c t.val t.isLt).2 = k0_pay2 (outsAt0 m c (t.val - 1) (Nat.lt_of_le_of_lt (Nat.sub_le _ _) t.isLt)).2 (iblk m c 0 t) (iblk m c 1 t) := by
  have e := scratch_last c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2
  rw [outsAt0_C m c t h0 h1]
  dsimp only
  exact e

/-- and the output block holds the completed scratch plus the scaled low-rank product. -/
theorem out_at_last (c : Dev nD) (t : Fin cfg0.N) (h0 : ¬t.val % 4 = 0) (h1 : t.val % 4 = 3) :
    (outsAt0 m c t.val t.isLt).1 = k0_pay3 (iblk m c 2 t) (iblk m c 3 t) (k0_pay2 (outsAt0 m c (t.val - 1) (Nat.lt_of_le_of_lt (Nat.sub_le _ _) t.isLt)).2 (iblk m c 0 t) (iblk m c 1 t)) := by
  have e := out_last c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2
  rw [outsAt0_C m c t h0 h1]
  dsimp only
  exact e

end Points

end Cert.KernelIdeal.Pieces
end
-- ==== Proof.LibMatmul.lean ====
/-
  A plain matrix product read at an index: for the dimension numbers that contract the left operand's second
  axis with the right operand's first (rows × inner times inner × columns, no batch axis), a product into the
  zero accumulator is, at `(i, j)`, the sum over the inner coordinate `k` of `lhs (i, k) · rhs (k, j)`.
-/
import Idealize.ShloMosaic.PureOps.Ideal.Laws
import Idealize.ShloMosaic.Lib.ValueIdx

noncomputable section

namespace Idealize.ShloMosaic.ValueIdx

/-- The plain product into the zero accumulator, at `(i, j)`, as a sum over the inner coordinate. -/
theorem matmul_plain_zero_apply (M K N : ℕ) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact hk)
  have er : (DotDims.plain M K N).rhsIdx (ix2 i j) ((contrEquiv1 (DotDims.plain M K N) K rfl rfl).symm k) = ix2 k j :=
    funext fun a => Fin.ext (by
      match a with
      | ⟨0, _⟩ => exact hk
      | ⟨1, _⟩ => rfl)
  rw [el, er]

end Idealize.ShloMosaic.ValueIdx

end
-- ==== Proof.LibBlockSum.lean ====
/-
  Sums cut into consecutive blocks.

  A sum of `n * b` terms of a commutative additive monoid, indexed by `Fin (n * b)`, is the sum over the
  `n` consecutive blocks of length `b` of each block's sum: term `p * b + q` is term `q` of block `p`.
  No subtraction and no cancellation is used, so the law holds on the extended reals with their
  infinities as it does on the reals.
-/
import Mathlib.Algebra.BigOperators.Fin
import Mathlib.Logic.Equiv.Fin.Basic

namespace BlockSum

variable {M : Type*} [AddCommMonoid M]

/-- Position `q` of block `p`, as a position among all `n * b` terms. -/
def pos {n b : ℕ} (p : Fin n) (q : Fin b) : Fin (n * b) :=
  ⟨p.val * b + q.val, by
    have hp : p.val + 1 ≤ n := p.isLt
    calc p.val * b + q.val < p.val * b + b := Nat.add_lt_add_left q.isLt _
      _ = (p.val + 1) * b := (Nat.succ_mul _ _).symm
      _ ≤ n * b := Nat.mul_le_mul_right b hp⟩

@[simp] theorem pos_val {n b : ℕ} (p : Fin n) (q : Fin b) : (pos p q).val = p.val * b + q.val := rfl

/-- Every position is position `k % b` of block `k / b`, and of no other. -/
def posEquiv (n b : ℕ) : Fin n × Fin b ≃ Fin (n * b) where
  toFun x := pos x.1 x.2
  invFun k :=
    have hb : 0 < b := Nat.pos_of_ne_zero fun h => by
      have := k.isLt; simp [h] at this
    (⟨k.val / b, Nat.div_lt_of_lt_mul (Nat.mul_comm n b ▸ k.isLt)⟩, ⟨k.val % b, Nat.mod_lt _ hb⟩)
  left_inv := by
    rintro ⟨p, q⟩
    have hb : 0 < b := Nat.pos_of_ne_zero fun h => by
      have := q.isLt; simp [h] at this
    refine Prod.ext (Fin.ext ?_) (Fin.ext ?_)
    · show (p.val * b + q.val) / b = p.val
      rw [Nat.mul_comm, Nat.mul_add_div hb, Nat.div_eq_of_lt q.isLt, Nat.add_zero]
    · show (p.val * b + q.val) % b = q.val
      rw [Nat.mul_comm, Nat.mul_add_mod, Nat.mod_eq_of_lt q.isLt]
  right_inv := by
    intro k
    refine Fin.ext ?_
    show k.val / b * b + k.val % b = k.val
    rw [Nat.mul_comm]; exact Nat.div_add_mod _ _

/-- The whole sum is the sum of the blocks' sums. -/
theorem sum_blocks (n b : ℕ) (f : Fin (n * b) → M) :
    ∑ k : Fin (n * b), f k = ∑ p : Fin n, ∑ q : Fin b, f (pos p q) := by
  rw [← Fintype.sum_prod_type (f := fun x : Fin n × Fin b => f (pos x.1 x.2))]
  exact (Equiv.sum_comp (posEquiv n b) f).symm

/-- The same with the blocks counted by a range of naturals: `g p` is block `p`'s sum wherever `p < n`. -/
theorem sum_blocks_range (n b : ℕ) (f : Fin (n * b) → M) (g : ℕ → M)
    (hg : ∀ p : Fin n, g p.val = ∑ q : Fin b, f (pos p q)) :
    ∑ k : Fin (n * b), f k = ∑ p ∈ Finset.range n, g p := by
  rw [sum_blocks, Finset.sum_range]
  exact Finset.sum_congr rfl fun p _ => (hg p).symm

end BlockSum
-- ==== Proof.Spec.lean ====
/-
  The function both programs compute, and the one law that joins their two arrangements.

  With `x` a [4, 2048, 2048] stack of rows, `w` a [2048, 8192] weight, and `a` [2048, 16], `b` [16, 8192] the two
  low-rank factors, the result at (p, t, f) is

      sum over e of x[p,t,e] * w[e,f]  +  (sum over l of (sum over e of x[p,t,e] * a[e,l]) * b[l,f]) * 2.

  The reference computes exactly this. The kernel flattens the rows to [8192, 2048], takes the inner product with `a`
  once, and forms the first sum in four consecutive steps of 512 terms each, one per grid step, starting from zero.
  The extended reals are a commutative additive monoid, so a sum of 2048 terms is the sum of its four consecutive
  blocks of 512 whatever the terms are: no finiteness is needed.
-/
import Idealize.ShloMosaic.PureOps.Ideal
import Idealize.ShloMosaic.PureOps.Ideal.Laws
import Idealize.ShloMosaic.Lib.ValueIdx
import proofs.«161209_j89979564851975_2_alg».proof.Proof.LibBlockSum

noncomputable section

namespace DenseLora

open Idealize.ShloMosaic Idealize.ShloMosaic.ValueIdx

/-- A matrix of extended reals with `R` rows and `C` columns. -/
abbrev Mat (R C : ℕ) : Type := (⟨2, ![R, C]⟩ : Shape).Idx → EReal

/-- A stack of `P` such matrices. -/
abbrev Stack (P R C : ℕ) : Type := (⟨3, ![P, R, C]⟩ : Shape).Idx → EReal

/-- The scaling factor: the word of 2.0, which both programs spell alike and which is never evaluated. -/
abbrev scale : EReal := Ideal.ofBits .f32 0x40000000#32

/-- A matrix read at natural-number coordinates; zero outside (no statement below depends on the outside value). -/
def at2 {R C : ℕ} (X : Mat R C) (r c : ℕ) : EReal :=
  if h : r < R ∧ c < C then X (ix2 ⟨r, h.1⟩ ⟨c, h.2⟩) else 0

theorem at2_of_lt {R C : ℕ} (X : Mat R C) {r c : ℕ} (hr : r < R) (hc : c < C) :
    at2 X r c = X (ix2 ⟨r, hr⟩ ⟨c, hc⟩) := dif_pos ⟨hr, hc⟩

theorem at2_fin {R C : ℕ} (X : Mat R C) (r : Fin R) (c : Fin C) : at2 X r.val c.val = X (ix2 r c) :=
  at2_of_lt X r.isLt c.isLt

/-- Step `k` of the main product at row `r` and column `c`: the 512 terms with inner coordinate `512 k + d`. -/
def step (X : Mat 8192 2048) (W : Mat 2048 8192) (r c k : ℕ) : EReal :=
  ∑ d : Fin 512, at2 X r (k * 512 + d.val) * at2 W (k * 512 + d.val) c

/-- The four steps together are the whole inner product. -/
theorem steps_sum (X : Mat 8192 2048) (W : Mat 2048 8192) (r c : Fin 8192) :
    ∑ k ∈ Finset.range 4, step X W r.val c.val k = ∑ e : Fin 2048, X (ix2 r e) * W (ix2 e c) := by
  have h := BlockSum.sum_blocks_range 4 512 (fun e : Fin (4 * 512) => at2 X r.val e.val * at2 W e.val c.val)
    (fun k => step X W r.val c.val k) (fun _ => rfl)
  rw [← h]
  show ∑ e : Fin 2048, at2 X r.val e.val * at2 W e.val c.val = _
  exact Finset.sum_congr rfl fun e _ => by rw [at2_fin, at2_fin]

/-- The kernel's array before the final reshape: row `r` of the flattened input against the weight, plus twice the
    low-rank term through the precomputed [8192, 16] inner product `L`. -/
def flat (X : Mat 8192 2048) (W : Mat 2048 8192) (L : Mat 8192 16) (B : Mat 16 8192) : Mat 8192 8192 :=
  fun i => (∑ e : Fin 2048, X (ix2 (i 0) e) * W (ix2 e (i 1))) + (∑ l : Fin 16, L (ix2 (i 0) l) * B (ix2 l (i 1))) * scale

/-- The result, as one function of the four arguments. -/
def result (x : Stack 4 2048 2048) (w : Mat 2048 8192) (a : Mat 2048 16) (b : Mat 16 8192) : Stack 4 2048 8192 :=
  fun i => (∑ e : Fin 2048, x (ix3 (i 0) (i 1) e) * w (ix2 e (i 2)))
    + (∑ l : Fin 16, (∑ e : Fin 2048, x (ix3 (i 0) (i 1) e) * a (ix2 e l)) * b (ix2 l (i 2))) * scale

theorem result_apply (x : Stack 4 2048 2048) (w : Mat 2048 8192) (a : Mat 2048 16) (b : Mat 16 8192)
    (p : Fin 4) (t : Fin 2048) (f : Fin 8192) :
    result x w a b (ix3 p t f) = (∑ e : Fin 2048, x (ix3 p t e) * w (ix2 e f))
      + (∑ l : Fin 16, (∑ e : Fin 2048, x (ix3 p t e) * a (ix2 e l)) * b (ix2 l f)) * scale := rfl

theorem flat_apply (X : Mat 8192 2048) (W : Mat 2048 8192) (L : Mat 8192 16) (B : Mat 16 8192) (r c : Fin 8192) :
    flat X W L B (ix2 r c) = (∑ e : Fin 2048, X (ix2 r e) * W (ix2 e c)) + (∑ l : Fin 16, L (ix2 r l) * B (ix2 l c)) * scale := rfl

/-- Row `2048 p + t` of the flattened input is row `(p, t)` of the stack. -/
def flatten (x : Stack 4 2048 2048) : Mat 8192 2048 :=
  fun i => x (ix3 ⟨(i 0).val / 2048, by have := idx2_lt0 i; omega⟩ ⟨(i 0).val % 2048, Nat.mod_lt _ (by norm_num)⟩ (i 1))

/-- The inner product of the flattened input with the first low-rank factor. -/
def down (X : Mat 8192 2048) (a : Mat 2048 16) : Mat 8192 16 :=
  fun i => ∑ e : Fin 2048, X (ix2 (i 0) e) * a (ix2 e (i 1))

theorem down_apply (X : Mat 8192 2048) (a : Mat 2048 16) (r : Fin 8192) (l : Fin 16) :
    down X a (ix2 r l) = ∑ e : Fin 2048, X (ix2 r e) * a (ix2 e l) := rfl

/-- Row `2048 p + t`, as a row of the flattened arrays. -/
def row (p : Fin 4) (t : Fin 2048) : Fin 8192 := ⟨2048 * p.val + t.val, by have := p.isLt; have := t.isLt; omega⟩

theorem flatten_row (x : Stack 4 2048 2048) (p : Fin 4) (t : Fin 2048) (e : Fin 2048) :
    flatten x (ix2 (row p t) e) = x (ix3 p t e) := by
  unfold flatten
  have h1 : (2048 * p.val + t.val) / 2048 = p.val := by have := t.isLt; omega
  have h2 : (2048 * p.val + t.val) % 2048 = t.val := by have := t.isLt; omega
  exact congrArg x (funext fun d => by
    match d with
    | ⟨0, _⟩ => exact Fin.ext h1
    | ⟨1, _⟩ => exact Fin.ext h2
    | ⟨2, _⟩ => rfl)

/-- Reading the kernel's flat array at row `2048 p + t` gives the result at `(p, t, f)`. -/
theorem flat_row (x : Stack 4 2048 2048) (w : Mat 2048 8192) (a : Mat 2048 16) (b : Mat 16 8192)
    (p : Fin 4) (t : Fin 2048) (f : Fin 8192) :
    flat (flatten x) w (down (flatten x) a) b (ix2 (row p t) f) = result x w a b (ix3 p t f) := by
  rw [flat_apply, result_apply]
  simp only [down_apply, flatten_row]

end DenseLora

end
-- ==== Proof.Payload.lean ====
/-
  The body's three stored values at the extended reals, read at one entry.

  The cleared block is zero everywhere. The accumulating store writes, at (p, q), the running value there plus the
  sum over the 512 inner coordinates of the step's two input blocks. The final store writes the completed running
  value plus the 16-term inner product of the two low-rank blocks times the scaling factor. A matrix product into a
  zero accumulator is a plain sum of products at the extended reals; the shape casts are between equal shapes.
-/
import proofs.«161209_j89979564851975_2_alg».proof.Proof.Gen.KernelIdeal.Skeleton
import proofs.«161209_j89979564851975_2_alg».proof.Proof.LibMatmul
import proofs.«161209_j89979564851975_2_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.KernelIdeal.Payload
open Cert.KernelIdeal Cert.KernelIdeal.Gen Idealize.ShloMosaic.ValueIdx

/-- The cleared block is zero at every entry. -/
theorem cleared_apply (p : Fin 1024) (q : Fin 2048) : k0_pay1 (F := Ideal) (ix2 p q) = 0 := by
  unfold k0_pay1
  rw [shapeCast_self]
  show Ideal.ofBits .f32 0x00000000#32 = 0
  exact Ideal.ofBits_zero_f32

/-- One accumulating step at an entry: the running value plus the step's 512 products. -/
theorem accumulate_apply (acc : Vec Ideal S1024x2048 .f32) (x0 : Vec Ideal S1024x512 .bf16) (x1 : Vec Ideal S512x2048 .bf16)
    (p : Fin 1024) (q : Fin 2048) :
    k0_pay2 acc x0 x1 (ix2 p q) = acc (ix2 p q) + ∑ d : Fin 512, x0 (ix2 p d) * x1 (ix2 d q) := by
  unfold k0_pay2
  rw [shapeCast_self, shapeCast_self, shapeCast_self]
  show acc (ix2 p q) + FloatOps.matmul (F := Ideal) (DotDims.plain 1024 512 2048) none x0 x1 (constant (F := Ideal) ⟨2, ![1024, 2048]⟩ .f32 0x00000000#32) (ix2 p q) = _
  rw [matmul_plain_zero_apply]

/-- The final store at an entry: the completed running value plus the scaled 16-term low-rank product. -/
theorem finish_apply (x2 : Vec Ideal S1024x16 .bf16) (x3 : Vec Ideal S16x2048 .bf16) (acc : Vec Ideal S1024x2048 .f32)
    (p : Fin 1024) (q : Fin 2048) :
    k0_pay3 x2 x3 acc (ix2 p q) = acc (ix2 p q) + (∑ l : Fin 16, x2 (ix2 p l) * x3 (ix2 l q)) * DenseLora.scale := by
  unfold k0_pay3
  rw [shapeCast_self, shapeCast_self]
  show acc (ix2 p q) + FloatOps.matmul (F := Ideal) (DotDims.plain 1024 16 2048) none x2 x3 (constant (F := Ideal) ⟨2, ![1024, 2048]⟩ .f32 0x00000000#32) (ix2 p q)
    * Ideal.ofBits .f32 0x40000000#32 = _
  rw [matmul_plain_zero_apply]

end Cert.KernelIdeal.Payload
end
-- ==== Proof.LibDot.lean ====
/-
  The host's `dot_general` read at an index: for the dimension numbers that contract the left operand's second
  axis with the right operand's first (rows × inner times inner × columns, no batch axis), the product at the
  extended reals is, at `(i, j)`, the sum over the inner coordinate `k` of `lhs (i, k) · rhs (k, j)`,
  whatever the precision and the schedule key. Beside the same fact for a product into the zero accumulator this
  makes a row-tiled product and the whole product one function of the two matrices.
-/
import Idealize.ShloMosaic.PureOps.Ideal.Laws
import Idealize.ShloMosaic.Lib.ValueIdx

noncomputable section

namespace Idealize.ShloMosaic.ValueIdx

/-- The host's plain product, at `(i, j)`, as a sum over the inner coordinate. -/
theorem dotGeneral_plain_apply (M K N : ℕ) {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact hk)
  have er : (DotDims.plain M K N).rhsIdx (ix2 i j) ((contrEquiv1 (DotDims.plain M K N) K rfl rfl).symm k) = ix2 k j :=
    funext fun a => Fin.ext (by
      match a with
      | ⟨0, _⟩ => exact hk
      | ⟨1, _⟩ => rfl)
  rw [el, er]

end Idealize.ShloMosaic.ValueIdx

end
-- ==== Proof.Blocks.lean ====
/-
  Where the kernel's blocks sit in its arrays, and what those arrays are.

  The grid has 8 x 4 x 4 points; point `t` has coordinates (t / 16, t / 4 mod 4, t mod 4): a row block of 1024
  rows, a column block of 2048 columns, and a step. At that point the left input block is rows
  `1024 (t / 16) ..` and inner coordinates `512 (t mod 4) ..` of the flattened input; the right input block is the
  same inner coordinates and columns `2048 (t / 4 mod 4) ..` of the weight; the two low-rank blocks are the same
  rows of the precomputed [8192, 16] product and the same columns of the second factor.
  Before the region the host flattens the input's rows, changes float formats (the identity at the extended
  reals) and forms the [8192, 16] product of the flattened input with the first factor.
-/
import proofs.«161209_j89979564851975_2_alg».proof.Proof.Gen.KernelIdeal.Frame
import proofs.«161209_j89979564851975_2_alg».proof.Proof.Spec
import proofs.«161209_j89979564851975_2_alg».proof.Proof.LibDot
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem
open Idealize.ShloMosaic.Pipeline (Dat)

namespace Cert.KernelIdeal.Blocks
open Cert.KernelIdeal Cert.KernelIdeal.Gen Idealize.ShloMosaic.ValueIdx DenseLora

variable (m : (ℓ : Loc nD τ sig) → Buf (Elt Ideal) ℓ)

/-- The printed index maps in closed form, decided over the 128 points. -/
theorem index_maps : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = t.val / 16 ∧ win0_2.index t (1 : Fin 2) = 0
    ∧ win0_3.index t (0 : Fin 2) = 0 ∧ win0_3.index t (1 : Fin 2) = t.val / 4 % 4
    ∧ win0_4.index t (0 : Fin 2) = t.val / 16 ∧ win0_4.index t (1 : Fin 2) = t.val / 4 % 4 :=
  (by decide +kernel : ∀ t : Fin grid0.N, _)

theorem point_lt (t : Fin cfg0.N) : t.val < 128 := lt_of_lt_of_eq t.isLt (show cfg0.N = 128 from N_0)

/-- The four arrays the region reads, as matrices of extended reals. -/
abbrev lhs (c : Dev nD) : Mat 8192 2048 := V m c main_v1
abbrev rhs (c : Dev nD) : Mat 2048 8192 := V m c main_v2
abbrev low (c : Dev nD) : Mat 8192 16 := V m c main_v6
abbrev up (c : Dev nD) : Mat 16 8192 := V m c main_v4

/-- The left input block at a point. -/
theorem lhs_block (c : Dev nD) (t : Fin cfg0.N) (p : Fin 1024) (d : Fin 512) :
    (iblk m c 0 t : Vec Ideal S1024x512 .bf16) (ix2 p d)
      = at2 (lhs m c) (1024 * (t.val / 16) + p.val) (t.val % 4 * 512 + d.val) := by
  have hN := point_lt t
  obtain ⟨e0, e1, -⟩ := index_maps t
  rw [at2_of_lt (lhs m c) (by omega) (by omega)]
  unfold iblk
  rw [View.read_apply]
  show V m c main_v1 _ = V m c main_v1 _
  refine congrArg (V m c main_v1) (funext fun a => Fin.ext ?_)
  match a with
  | ⟨0, _⟩ => show win0_0.index t (0 : Fin 2) * 1024 + 1 * p.val = 1024 * (t.val / 16) + p.val; omega
  | ⟨1, _⟩ => show win0_0.index t (1 : Fin 2) * 512 + 1 * d.val = t.val % 4 * 512 + d.val; omega

/-- The right input block at a point. -/
theorem rhs_block (c : Dev nD) (t : Fin cfg0.N) (d : Fin 512) (q : Fin 2048) :
    (iblk m c 1 t : Vec Ideal S512x2048 .bf16) (ix2 d q)
      = at2 (rhs m c) (t.val % 4 * 512 + d.val) (2048 * (t.val / 4 % 4) + q.val) := by
  have hN := point_lt t
  obtain ⟨-, -, e0, e1, -⟩ := index_maps t
  rw [at2_of_lt (rhs m c) (by omega) (by omega)]
  unfold iblk
  rw [View.read_apply]
  show V m c main_v2 _ = V m c main_v2 _
  refine congrArg (V m c main_v2) (funext fun a => Fin.ext ?_)
  match a with
  | ⟨0, _⟩ => show win0_1.index t (0 : Fin 2) * 512 + 1 * d.val = t.val % 4 * 512 + d.val; omega
  | ⟨1, _⟩ => show win0_1.index t (1 : Fin 2) * 2048 + 1 * q.val = 2048 * (t.val / 4 % 4) + q.val; omega

/-- The block of the precomputed low-rank product at a point. -/
theorem low_block (c : Dev nD) (t : Fin cfg0.N) (p : Fin 1024) (l : Fin 16) :
    (iblk m c 2 t : Vec Ideal S1024x16 .bf16) (ix2 p l)
      = at2 (low m c) (1024 * (t.val / 16) + p.val) l.val := by
  have hN := point_lt t
  obtain ⟨-, -, -, -, e0, e1, -⟩ := index_maps t
  rw [at2_of_lt (low m c) (by omega) l.isLt]
  unfold iblk
  rw [View.read_apply]
  show V m c main_v6 _ = V m c main_v6 _
  refine congrArg (V m c main_v6) (funext fun a => Fin.ext ?_)
  match a with
  | ⟨0, _⟩ => show win0_2.index t (0 : Fin 2) * 1024 + 1 * p.val = 1024 * (t.val / 16) + p.val; omega
  | ⟨1, _⟩ => show win0_2.index t (1 : Fin 2) * 16 + 1 * l.val = l.val; omega

/-- The block of the second low-rank factor at a point. -/
theorem up_block (c : Dev nD) (t : Fin cfg0.N) (l : Fin 16) (q : Fin 2048) :
    (iblk m c 3 t : Vec Ideal S16x2048 .bf16) (ix2 l q)
      = at2 (up m c) l.val (2048 * (t.val / 4 % 4) + q.val) := by
  have hN := point_lt t
  obtain ⟨-, -, -, -, -, -, e0, e1, -⟩ := index_maps t
  rw [at2_of_lt (up m c) l.isLt (by omega)]
  unfold iblk
  rw [View.read_apply]
  show V m c main_v4 _ = V m c main_v4 _
  refine congrArg (V m c main_v4) (funext fun a => Fin.ext ?_)
  match a with
  | ⟨0, _⟩ => show win0_3.index t (0 : Fin 2) * 16 + 1 * l.val = l.val; omega
  | ⟨1, _⟩ => show win0_3.index t (1 : Fin 2) * 2048 + 1 * q.val = 2048 * (t.val / 4 % 4) + q.val; omega

end Cert.KernelIdeal.Blocks
end
-- ==== Proof.Accum.lean ====
/-
  The running block is the partial inner product.

  After the grid point `t` the scratch holds, at (p, q), the sum of steps 0 .. t mod 4 of the inner product of row
  `1024 (t / 16) + p` of the flattened input with column `2048 (t / 4 mod 4) + q` of the weight: by induction on the
  point. A point with `t mod 4 = 0` starts from the cleared block; any other point adds its step to what the point
  before left, and the point before has the same row block and column block. At a point with `t mod 4 = 3` the four
  steps are the whole inner product, and the output block is the kernel's flat array read under the block.
-/
import proofs.«161209_j89979564851975_2_alg».proof.Proof.Pieces
import proofs.«161209_j89979564851975_2_alg».proof.Proof.Payload
import proofs.«161209_j89979564851975_2_alg».proof.Proof.Blocks
import proofs.«161209_j89979564851975_2_alg».proof.Proof.Spec

noncomputable section

open Idealize.ShloMosaic Idealize.ShloMosaic.TcCoe Idealize.SL.Sem
open Idealize.ShloMosaic.Pipeline (Dat)

namespace Cert.KernelIdeal.Accum
open Cert.KernelIdeal Cert.KernelIdeal.Gen Idealize.ShloMosaic.ValueIdx DenseLora Cert.KernelIdeal.Blocks

variable (m : (ℓ : Loc nD τ sig) → Buf (Elt Ideal) ℓ)

/-- A product of two blocks at an entry is a step of the inner product, when the blocks sit where the step reads. -/
theorem step_of_blocks (X : Mat 8192 2048) (W : Mat 2048 8192) (x0 : Vec Ideal S1024x512 .bf16) (x1 : Vec Ideal S512x2048 .bf16)
    (R C k : ℕ) (p : Fin 1024) (q : Fin 2048) (h0 : ∀ d : Fin 512, x0 (ix2 p d) = at2 X R (k * 512 + d.val))
    (h1 : ∀ d : Fin 512, x1 (ix2 d q) = at2 W (k * 512 + d.val) C) :
    ∑ d : Fin 512, x0 (ix2 p d) * x1 (ix2 d q) = step X W R C k := by
  unfold step
  exact Finset.sum_congr rfl fun d _ => by rw [h0, h1]

/-- A product of two low-rank blocks at an entry, when the blocks sit at row `r` and column `s`. -/
theorem low_of_blocks (L : Mat 8192 16) (B : Mat 16 8192) (x2 : Vec Ideal S1024x16 .bf16) (x3 : Vec Ideal S16x2048 .bf16)
    (r s : Fin 8192) (p : Fin 1024) (q : Fin 2048) (h2 : ∀ l : Fin 16, x2 (ix2 p l) = at2 L r.val l.val)
    (h3 : ∀ l : Fin 16, x3 (ix2 l q) = at2 B l.val s.val) :
    ∑ l : Fin 16, x2 (ix2 p l) * x3 (ix2 l q) = ∑ l : Fin 16, L (ix2 r l) * B (ix2 l s) :=
  Finset.sum_congr rfl fun l _ => by rw [h2, h3, at2_fin, at2_fin]

/-- The partial inner product after point `n`, at entry (p, q) of the point's block. -/
def running (X : Mat 8192 2048) (W : Mat 2048 8192) (n p q : ℕ) : EReal :=
  ∑ k ∈ Finset.range (n % 4 + 1), step X W (1024 * (n / 16) + p) (2048 * (n / 4 % 4) + q) k

/-- A point that starts a row of steps leaves step 0. -/
theorem running_first (c : Dev nD) (t : Fin cfg0.N) (h0 : t.val % 4 = 0) (p : Fin 1024) (q : Fin 2048) :
    (outsAt0 m c t.val t.isLt).2 (ix2 p q) = running (lhs m c) (rhs m c) t.val p.val q.val := by
  rw [congrFun (Pieces.scratch_at_first m c t h0) (ix2 p q), Payload.accumulate_apply, Payload.cleared_apply, zero_add,
    (step_of_blocks (lhs m c) (rhs m c) (iblk m c 0 t) (iblk m c 1 t) (1024 * (t.val / 16) + p.val)
      (2048 * (t.val / 4 % 4) + q.val) (t.val % 4) p q (fun d => lhs_block m c t p d) (fun d => rhs_block m c t d q))]
  unfold running
  rw [h0, Nat.zero_add, Finset.sum_range_one]

/-- Any other point adds its step to what the point before left. -/
theorem running_later (c : Dev nD) (t : Fin cfg0.N) (h0 : ¬t.val % 4 = 0) (p : Fin 1024) (q : Fin 2048)
    (ih : (outsAt0 m c (t.val - 1) (Nat.lt_of_le_of_lt (Nat.sub_le _ _) t.isLt)).2 (ix2 p q)
      = running (lhs m c) (rhs m c) (t.val - 1) p.val q.val) :
    (outsAt0 m c t.val t.isLt).2 (ix2 p q) = running (lhs m c) (rhs m c) t.val p.val q.val := by
  have hs : (outsAt0 m c t.val t.isLt).2
      = k0_pay2 (outsAt0 m c (t.val - 1) (Nat.lt_of_le_of_lt (Nat.sub_le _ _) t.isLt)).2 (iblk m c 0 t) (iblk m c 1 t) := by
    by_cases h1 : t.val % 4 = 3
    · exact Pieces.scratch_at_last m c t h0 h1
    · exact Pieces.scratch_at_middle m c t h0 h1
  rw [congrFun hs (ix2 p q), Payload.accumulate_apply, ih, (step_of_blocks (lhs m c) (rhs m c) (iblk m c 0 t) (iblk m c 1 t) (1024 * (t.val / 16) + p.val)
      (2048 * (t.val / 4 % 4) + q.val) (t.val % 4) p q (fun d => lhs_block m c t p d) (fun d => rhs_block m c t d q))]
  unfold running
  have e1 : (t.val - 1) % 4 + 1 = t.val % 4 := by omega
  have e2 : (t.val - 1) / 16 = t.val / 16 := by omega
  have e3 : (t.val - 1) / 4 % 4 = t.val / 4 % 4 := by omega
  rw [e1, e2, e3, Finset.sum_range_succ]

/-- The scratch after every point is the partial inner product. -/
theorem scratch_after (c : Dev nD) : ∀ (n : ℕ) (hn : n < cfg0.N) (p : Fin 1024) (q : Fin 2048),
    (outsAt0 m c n hn).2 (ix2 p q) = running (lhs m c) (rhs m c) n p.val q.val
  | 0, hn, p, q => running_first m c ⟨0, hn⟩ rfl p q
  | n + 1, hn, p, q => by
    by_cases h0 : (n + 1) % 4 = 0
    · exact running_first m c ⟨n + 1, hn⟩ h0 p q
    · exact running_later m c ⟨n + 1, hn⟩ h0 p q (scratch_after c n (Nat.lt_of_succ_lt hn) p q)

/-- The row and the column of the flat array under entry (p, q) of the block of point `t`. -/
def rowOf (t : Fin cfg0.N) (p : Fin 1024) : Fin 8192 :=
  ⟨1024 * (t.val / 16) + p.val, by have := point_lt t; have := p.isLt; omega⟩
def colOf (t : Fin cfg0.N) (q : Fin 2048) : Fin 8192 :=
  ⟨2048 * (t.val / 4 % 4) + q.val, by have := q.isLt; omega⟩

/-- At the last step the output block is the flat array under the block. -/
theorem out_block (c : Dev nD) (t : Fin cfg0.N) (h1 : t.val % 4 = 3) (p : Fin 1024) (q : Fin 2048) :
    (outsAt0 m c t.val t.isLt).1 (ix2 p q)
      = flat (lhs m c) (rhs m c) (low m c) (up m c) (ix2 (rowOf t p) (colOf t q)) := by
  have h0 : ¬t.val % 4 = 0 := by omega
  have hacc : k0_pay2 (outsAt0 m c (t.val - 1) (Nat.lt_of_le_of_lt (Nat.sub_le _ _) t.isLt)).2 (iblk m c 0 t) (iblk m c 1 t) (ix2 p q)
      = running (lhs m c) (rhs m c) t.val p.val q.val :=
    (congrFun (Pieces.scratch_at_last m c t h0 h1) (ix2 p q)).symm.trans (scratch_after m c t.val t.isLt p q)
  have hrun : running (lhs m c) (rhs m c) t.val p.val q.val
      = ∑ e : Fin 2048, lhs m c (ix2 (rowOf t p) e) * rhs m c (ix2 e (colOf t q)) := by
    unfold running
    rw [h1]
    exact steps_sum (lhs m c) (rhs m c) (rowOf t p) (colOf t q)
  have hlow := low_of_blocks (low m c) (up m c) (iblk m c 2 t) (iblk m c 3 t) (rowOf t p) (colOf t q) p q
    (fun l => low_block m c t p l) (fun l => up_block m c t l q)
  rw [congrFun (Pieces.out_at_last m c t h0 h1) (ix2 p q), Payload.finish_apply, hacc, hrun, hlow, flat_apply]

end Cert.KernelIdeal.Accum
end
-- ==== Proof.KValue.lean ====
/-
  The kernel's output array, and its result.

  Only the points with `t mod 4 = 3` write their output block back, and the 32 blocks they write tile the
  [8192, 8192] array: entry (r, s) lies in the block of the point with row block `r / 1024`, column block `s / 2048` and
  step 3. So after the run the array is the flat function of the four arrays the region read; those arrays are the
  flattened input, the weight, the inner product of the flattened input with the first factor, and the second
  factor; and the host's last reshape reads row `2048 p + t` of the flat array at (p, t).
-/
import proofs.«161209_j89979564851975_2_alg».proof.Proof.Accum
import proofs.«161209_j89979564851975_2_alg».proof.Proof.LibDot
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.KValue
open Cert.KernelIdeal Cert.KernelIdeal.Gen Idealize.ShloMosaic.ValueIdx DenseLora
open Cert.KernelIdeal.Blocks Cert.KernelIdeal.Accum

variable (m : (ℓ : Loc nD τ sig) → Buf (Elt Ideal) ℓ) (ρ : Dev nD → PrngReg)

/-- What a last point writes back is the flat array read under its block. -/
theorem flushed_eq (c : Dev nD) (t : Fin cfg0.N) (hf : (cfg0.win 4).flush t = true) :
    (dats m 0 c).flushed 4 t
      = ((cfg0.win 4).blk t).view.read (Elt Ideal) (flat (lhs m c) (rhs m c) (low m c) (up m c)) := by
  have h1 : t.val % 4 = 3 := (flush0_4 t).mp hf
  obtain ⟨-, -, -, -, -, -, -, -, e0, e1⟩ := index_maps t
  show (cfg0.win 4).cut (grid0.coords t) ((dats m 0 c).after 4 t) = _
  rw [after0_4]
  funext j
  obtain ⟨p, q, rfl⟩ : ∃ (p : Fin 1024) (q : Fin 2048), (j : S1024x2048.Idx) = ix2 p q :=
    ⟨j 0, j 1, eq_ix2 (n0 := 1024) (n1 := 2048) j⟩
  show (outsAt0 m c t.val t.isLt).1 (ix2 p q)
    = flat (lhs m c) (rhs m c) (low m c) (up m c) (((cfg0.win 4).blk t).view.emb (ix2 p q))
  rw [out_block m c t h1 p q]
  refine congrArg (flat (lhs m c) (rhs m c) (low m c) (up m c)) (funext fun a => Fin.ext ?_)
  match a with
  | ⟨0, _⟩ => show 1024 * (t.val / 16) + p.val = win0_4.index t (0 : Fin 2) * 1024 + 1 * p.val; omega
  | ⟨1, _⟩ => show 2048 * (t.val / 4 % 4) + q.val = win0_4.index t (1 : Fin 2) * 2048 + 1 * q.val; omega

/-- An entry of the array is in a point's block iff each coordinate is in the block's range. -/
theorem mem_block (t : Fin cfg0.N) (i : S8192x8192.Idx) :
    i ∈ ((cfg0.win 4).blk t).view.set ↔ ∀ a : Fin 2, win0_4.index t a * S1024x2048.size a ≤ (i a).val
      ∧ (i a).val < win0_4.index t a * S1024x2048.size a + S1024x2048.size a := by
  show i ∈ ((View.whole main_v7).slice (win0_4.rect t)).set ↔ _
  rw [View.set_slice_whole, Rect.mem_set_unit]
  exact Iff.rfl

/-- Every entry is in the block some last point writes back. -/
theorem covered (i : S8192x8192.Idx) :
    ∃ t : Fin cfg0.N, (cfg0.win 4).flush t = true ∧ i ∈ ((cfg0.win 4).blk t).view.set := by
  have hi0 : (i 0).val < 8192 := idx2_lt0 (n0 := 8192) (n1 := 8192) i
  have hi1 : (i 1).val < 8192 := idx2_lt1 (n0 := 8192) (n1 := 8192) i
  have hN : cfg0.N = 128 := N_0
  obtain ⟨t, ht⟩ : ∃ t : Fin cfg0.N, t.val = 16 * ((i 0).val / 1024) + 4 * ((i 1).val / 2048) + 3 :=
    ⟨⟨16 * ((i 0).val / 1024) + 4 * ((i 1).val / 2048) + 3, by rw [hN]; omega⟩, rfl⟩
  obtain ⟨-, -, -, -, -, -, -, -, e0, e1⟩ := index_maps t
  refine ⟨t, (flush0_4 t).mpr (by omega), ?_⟩
  rw [mem_block]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 2048 ≤ (i 1).val ∧ (i 1).val < win0_4.index t (1 : Fin 2) * 2048 + 2048
    omega

/-- The output array after the run. -/
theorem final (c : Dev nD) :
    (dats m 0 c).arrAt 4 cfg0.N = flat (lhs m c) (rhs m c) (low m c) (up m c) :=
  (dats m 0 c).arrAt_eq_of_cover 4 (flat (lhs m c) (rhs m c) (low m c) (up m c))
    (fun t hf => flushed_eq m c t hf) covered

/-- The weight reaches the region unchanged: its float format changes, which is the identity here. -/
theorem rhs_eq (c : Dev nD) : rhs m c = m ((c : Thread nD τ).loc main_arg1) := by
  show StableHlo.after hostOps0 (fun b => m (c, b)) (Proc.devRef .tc main_v2) = _
  after_results
  rfl

/-- So does the second low-rank factor. -/
theorem up_eq (c : Dev nD) : up m c = m ((c : Thread nD τ).loc main_arg3) := by
  show StableHlo.after hostOps0 (fun b => m (c, b)) (Proc.devRef .tc main_v4) = _
  after_results
  rfl

/-- The left array is the host's reshape of the input (the change of float format is the identity here), -/
theorem lhs_reshape (c : Dev nD) : (V m c main_v1 : Mat 8192 2048) = shapeCast S8192x2048 (m ((c : Thread nD τ).loc main_arg0)) shapeCasts_S4x2048x2048_S8192x2048 := by
  show StableHlo.after hostOps0 (fun b => m (c, b)) (Proc.devRef .tc main_v1) = _
  after_results
  rfl

/-- and the reshape flattens the first two axes: row `r` is row `(r / 2048, r mod 2048)` of the stack. -/
theorem reshape_eq (c : Dev nD) : (shapeCast S8192x2048 (m ((c : Thread nD τ).loc main_arg0)) shapeCasts_S4x2048x2048_S8192x2048 : Mat 8192 2048) = flatten (m ((c : Thread nD τ).loc main_arg0)) := by
  funext i
  obtain ⟨r, e', rfl⟩ : ∃ (r : Fin 8192) (e' : Fin 2048), i = ix2 r e' := ⟨i 0, i 1, eq_ix2 i⟩
  refine shapeCast_apply _ _ (ix2 r e') (ix3 ⟨r.val / 2048, by have := r.isLt; omega⟩ ⟨r.val % 2048, Nat.mod_lt _ (by norm_num)⟩ e') ?_
  rw [Shape.rowMajor_val_three, Shape.rowMajor_val_two]
  show (r.val / 2048 * 2048 + r.val % 2048) * 2048 + e'.val = r.val * 2048 + e'.val
  omega

theorem lhs_eq (c : Dev nD) : lhs m c = flatten (m ((c : Thread nD τ).loc main_arg0)) :=
  (lhs_reshape m c).trans (reshape_eq m c)

/-- The precomputed low-rank array is the inner product of the flattened input with the first factor. -/
theorem low_eq (c : Dev nD) :
    low m c = down (flatten (m ((c : Thread nD τ).loc main_arg0))) (m ((c : Thread nD τ).loc main_arg2)) := by
  have e : (V m c main_v6 : Mat 8192 16)
      = FloatOps.dotGeneral (F := Ideal) (φ₁ := .bf16) (φ₂ := .bf16) (DotDims.plain 8192 2048 16) none .single
          (shapeCast S8192x2048 (m ((c : Thread nD τ).loc main_arg0)) shapeCasts_S4x2048x2048_S8192x2048) (m ((c : Thread nD τ).loc main_arg2)) := by
    show StableHlo.after hostOps0 (fun b => m (c, b)) (Proc.devRef .tc main_v6) = _
    after_results
    rfl
  funext i
  obtain ⟨r, l, rfl⟩ : ∃ (r : Fin 8192) (l : Fin 16), i = ix2 r l := ⟨i 0, i 1, eq_ix2 i⟩
  show (V m c main_v6 : Mat 8192 16) (ix2 r l) = _
  rw [e, dotGeneral_plain_apply, down_apply, reshape_eq m c]

/-- THE RESULT: the host's last reshape of the output array is the result function of the four arguments. -/
theorem tail_eq (c : Dev nD) :
    Pipeline.afterTail₀ cfgs (dats m) 0 (V0 m) [hostOps1] c main_v8
      = result (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v8) = _
  after_results
  have hA : Pipeline.withArrays (cfgs 0).spec c (V0 m c) (fun w => (dats m 0 c).arrAt w (cfgs 0).N) (Proc.devRef .tc main_v7)
      = flat (lhs m c) (rhs m c) (low m c) (up m c) :=
    (Pipeline.withArrays_arr spec0 launch0.win.arr_inj c _ _ 4).trans (final m c)
  funext i
  obtain ⟨p, t, f, rfl⟩ : ∃ (p : Fin 4) (t : Fin 2048) (f : Fin 8192), i = ix3 p t f := ⟨i 0, i 1, i 2, eq_ix3 i⟩
  show shapeCast S4x2048x8192 (Pipeline.withArrays (cfgs 0).spec c (V0 m c) (fun w => (dats m 0 c).arrAt w (cfgs 0).N)
    (Proc.devRef .tc main_v7)) shapeCasts_S8192x8192_S4x2048x8192 (ix3 p t f) = _
  rw [hA]
  refine (shapeCast_apply _ _ (ix3 p t f) (ix2 (row p t) f) ?_).trans ?_
  · rw [Shape.rowMajor_val_two, Shape.rowMajor_val_three]
    show (2048 * p.val + t.val) * 8192 + f.val = (p.val * 2048 + t.val) * 8192 + f.val
    omega
  · rw [lhs_eq, rhs_eq, low_eq, up_eq]
    exact flat_row _ _ _ _ p t f

/-- The kernel's run, read: every weakly fair execution ends with the result array at the result function of the
    arguments and the arguments unchanged. -/
theorem run : θ_run defs (onTc (τ := τ) (main (F := Ideal))) ⟨m, fun _ => 0, ρ⟩ fun r => ∀ c : Dev nD,
      r.2.mem ((c.tc : Thread nD τ).loc main_v8)
        = result (m ((c : Thread nD τ).loc main_arg0)) (m ((c : Thread nD τ).loc main_arg1))
          (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v8 (Pipeline.mem_restRefs_of main_v8 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KValue
end
-- ==== Proof.RefSide.lean ====
/-
  The reference, read at an entry, is the stated result.

  Its three inner products contract the last axis of a three-axis left operand with the first axis of a matrix; at
  (p, t, f) each is a sum over the inner coordinate of the left operand at (p, t, e) times the right one at (e, f).
  The low-rank term is multiplied by the constant 2 and added to the main product, in that order on both sides.
-/
import proofs.«161209_j89979564851975_2_alg».proof.Proof.Gen.ReferenceIdeal.Read
import proofs.«161209_j89979564851975_2_alg».proof.Proof.Spec
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.ReferenceIdeal.RefValue
open Cert.ReferenceIdeal Cert.ReferenceIdeal.Gen Cert.ReferenceIdeal.Read Idealize.ShloMosaic.ValueIdx

/-- The reference's last stage is the result function of its four arguments. -/
theorem reference_eq (x : DenseLora.Stack 4 2048 2048) (w : DenseLora.Mat 2048 8192) (a : DenseLora.Mat 2048 16)
    (b : DenseLora.Mat 16 8192) :
    val_main_v5 (F := Ideal) x w a b = DenseLora.result x w a b := by
  funext i
  obtain ⟨p, t, f, rfl⟩ : ∃ (p : Fin 4) (t : Fin 2048) (f : Fin 8192), i = ix3 p t f := ⟨i 0, i 1, i 2, eq_ix3 i⟩
  have hl0 : ∀ k, lidx_main_v0 (ix3 p t f) k = ix3 p t k := fun k => funext fun d => by
    match d with
    | ⟨0, _⟩ => rfl
    | ⟨1, _⟩ => rfl
    | ⟨2, _⟩ => rfl
  have hr0 : ∀ k, ridx_main_v0 (ix3 p t f) k = ix2 k f := fun k => funext fun d => by
    match d with
    | ⟨0, _⟩ => rfl
    | ⟨1, _⟩ => rfl
  have hl2 : ∀ l, lidx_main_v2 (ix3 p t f) l = ix3 p t l := fun l => funext fun d => by
    match d with
    | ⟨0, _⟩ => rfl
    | ⟨1, _⟩ => rfl
    | ⟨2, _⟩ => rfl
  have hr2 : ∀ l, ridx_main_v2 (ix3 p t f) l = ix2 l f := fun l => funext fun d => by
    match d with
    | ⟨0, _⟩ => rfl
    | ⟨1, _⟩ => rfl
  have hl1 : ∀ (l : Fin 16) k, lidx_main_v1 (ix3 p t l) k = ix3 p t k := fun l k => funext fun d => by
    match d with
    | ⟨0, _⟩ => rfl
    | ⟨1, _⟩ => rfl
    | ⟨2, _⟩ => rfl
  have hr1 : ∀ (l : Fin 16) k, ridx_main_v1 (ix3 p t l) k = ix2 k l := fun l k => funext fun d => by
    match d with
    | ⟨0, _⟩ => rfl
    | ⟨1, _⟩ => rfl
  rw [val_main_v5_apply, val_main_v0_apply, val_main_v4_apply, val_main_v2_apply, val_main_v3_apply, val_main_cst_apply,
    DenseLora.result_apply]
  simp only [val_main_v1_apply, hl0, hr0, hl1, hr1, hl2, hr2, Ideal.addf_def, Ideal.mulf_def, Ideal.ofBits_def]

end Cert.ReferenceIdeal.RefValue
end
-- ==== Proof.lean ====
/-
  A dense layer with a low-rank correction: x · w + ((x · a) · b) · 2 over f32[4, 2048, 2048] rows.

  The kernel flattens the rows to [8192, 2048], forms x · a once on the host, and runs an 8 x 4 x 4 grid: for each of
  the 8 x 4 output blocks of [1024, 2048] it accumulates, in a scratch block cleared at step 0, the four partial
  products over 512 inner coordinates each, and at step 3 writes the scratch plus twice the low-rank product to the
  output block; the host reshapes the [8192, 8192] array back to [4, 2048, 8192]. The reference takes the three inner
  products over whole axes. At the extended reals a change of float format is the identity, a matrix product into a
  zero accumulator and the host's contraction are both plain sums of products, and a sum of 2048 terms is the sum of
  its four consecutive blocks of 512 in any commutative additive monoid; the low-rank term is computed in the same
  order, (x · a) · b then times 2, on both sides. So the two results are one function of the arguments, and the claim
  needs nothing of the precondition.

  The three frames: the two kernels' are the generated frame runs; the reference's is its generated run with the
  result dropped. The ideal pass rewrote nothing, so the idealization's statement is trivial.
-/
import proofs.«161209_j89979564851975_2_alg».proof.Defs
import proofs.«161209_j89979564851975_2_alg».proof.Proof.Gen.Kernel
import proofs.«161209_j89979564851975_2_alg».proof.Proof.Gen.Kernel.Frame
import proofs.«161209_j89979564851975_2_alg».proof.Proof.Gen.KernelIdeal
import proofs.«161209_j89979564851975_2_alg».proof.Proof.Gen.KernelIdeal.Frame
import proofs.«161209_j89979564851975_2_alg».proof.Proof.Gen.ReferenceIdeal
import proofs.«161209_j89979564851975_2_alg».proof.Proof.Gen.ReferenceIdeal.Run
import proofs.«161209_j89979564851975_2_alg».proof.Proof.Gen.ReferenceIdeal.Read
import proofs.«161209_j89979564851975_2_alg».proof.Proof.Gen.Pre_finite_inputs
import proofs.«161209_j89979564851975_2_alg».proof.Proof.KValue
import proofs.«161209_j89979564851975_2_alg».proof.Proof.RefSide
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- From memories that agree on the four arguments both programs end with the result array at the same function
    of them: the kernel by its run read back, the reference by its stages read at an entry. -/
theorem algebraic : Cert.algebraic_KernelIdeal_ReferenceIdeal := by
  intro m ρ m' ρ' _ hagree
  refine ⟨fun c => DenseLora.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.reference_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
